-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S256x8192 : Shape := ⟨2, ![256, 8192]⟩
abbrev S256 : Shape := ⟨1, ![256]⟩
abbrev S8192x8192 : Shape := ⟨2, ![8192, 8192]⟩
abbrev S8192 : Shape := ⟨1, ![8192]⟩
abbrev S32x32 : Shape := ⟨2, ![32, 32]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S256x8192 : S_.BroadcastsInDim S256x8192 (![] : Fin 0 → Fin S256x8192.rank)
  reducesTo_S256x8192_S_d0_1 : S256x8192.ReducesTo [0, 1] S_
  bcast_S_S256 : S_.BroadcastsInDim S256 (![] : Fin 0 → Fin S256.rank)
  reducesTo_S256_S_d0 : S256.ReducesTo [0] S_
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg7 : FVec F S32x32 .f32) (main_v33 : IVec S_ 1) : IVec S_ 1 :=
  let main_v34 : FVec F S32x32 .f32 := Host.absf main_arg7
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  main_v38

def fn_part1 {F : FTy → Type} [FloatOps F] (main_arg4 : FVec F S256 .f32) (main_arg5 : FVec F S8192x8192 .f32) (main_arg6 : FVec F S8192 .f32) (main_arg7 : FVec F S32x32 .f32) (main_v13 : IVec S_ 1) (main_v16 : IVec S256x8192 1) : IVec S_ 1 :=
  let main_c_5 : IVec S_ 1 := constantI S_ 1 1#1
  let main_v17 : IVec S_ 1 := (fun x v => Host.reduce IntOp.andi x v reducesTo_S256x8192_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_v33

def fn {F : FTy → Type} [FloatOps F] (main_arg0 : FVec F S32x8192 .f32) (main_arg1 : FVec F S256x8192 .f32) (main_arg2 : FVec F S256 .f32) (main_arg3 : FVec F S256x8192 .f32) (main_arg4 : FVec F S256 .f32) (main_arg5 : FVec F S8192x8192 .f32) (main_arg6 : FVec F S8192 .f32) (main_arg7 : FVec F S32x32 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S256x8192 .f32 := Host.absf main_arg1
  let main_cst_0 : FVec F S_ .f32 := constant S_ .f32 0x7F800000#32
  let main_v5 : FVec F S256x8192 .f32 := broadcastInDim S256x8192 ![] bcast_S_S256x8192 main_cst_0
  let main_v6 : IVec S256x8192 1 := cmpf .olt main_v4 main_v5
  let main_c_1 : IVec S_ 1 := constantI S_ 1 1#1
  let main_v7 : IVec S_ 1 := (fun x v => Host.reduce IntOp.andi x v reducesTo_S256x8192_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x8192 .f32 := Host.absf main_arg3
  let main_cst_4 : FVec F S_ .f32 := constant S_ .f32 0x7F800000#32
  let main_v15 : FVec F S256x8192 .f32 := broadcastInDim S256x8192 ![] bcast_S_S256x8192 main_cst_4
  let main_v16 : IVec S256x8192 1 := cmpf .olt main_v14 main_v15
  fn_part1 (F := F) main_arg4 main_arg5 main_arg6 main_arg7 main_v13 main_v16
-- ==== Kernel.lean ====
abbrev S32x8192 : Shape := ⟨2, ![32, 8192]⟩
abbrev S256x8192 : Shape := ⟨2, ![256, 8192]⟩
abbrev S256 : Shape := ⟨1, ![256]⟩
abbrev S8192x8192 : Shape := ⟨2, ![8192, 8192]⟩
abbrev S8192 : Shape := ⟨1, ![8192]⟩
abbrev S32x32 : Shape := ⟨2, ![32, 32]⟩
abbrev S1x256 : Shape := ⟨2, ![1, 256]⟩
abbrev S1x8192 : Shape := ⟨2, ![1, 8192]⟩
abbrev S512x8192 : Shape := ⟨2, ![512, 8192]⟩
abbrev S1x512 : Shape := ⟨2, ![1, 512]⟩
abbrev S32x512 : Shape := ⟨2, ![32, 512]⟩
abbrev S32x256 : Shape := ⟨2, ![32, 256]⟩
abbrev S32 : Shape := ⟨1, ![32]⟩
abbrev S32x1 : Shape := ⟨2, ![32, 1]⟩

abbrev nBuf : Space → Nat
  | .hbm => 12
  | .vmem => 13
  | .smem => 0
  | _ => 0

abbrev bufTy : (tb : Table) → Fin (tcTables nBuf tb) → BufTy
  | .hbm, ⟨0, _⟩ => ⟨S32x8192, .f32⟩
  | .hbm, ⟨1, _⟩ => ⟨S256x8192, .f32⟩
  | .hbm, ⟨2, _⟩ => ⟨S256, .f32⟩
  | .hbm, ⟨3, _⟩ => ⟨S256x8192, .f32⟩
  | .hbm, ⟨4, _⟩ => ⟨S256, .f32⟩
  | .hbm, ⟨5, _⟩ => ⟨S8192x8192, .f32⟩
  | .hbm, ⟨6, _⟩ => ⟨S8192, .f32⟩
  | .hbm, ⟨7, _⟩ => ⟨S32x32, .f32⟩
  | .hbm, ⟨8, _⟩ => ⟨S1x256, .f32⟩
  | .hbm, ⟨9, _⟩ => ⟨S1x256, .f32⟩
  | .hbm, ⟨10, _⟩ => ⟨S1x8192, .f32⟩
  | .hbm, ⟨11, _⟩ => ⟨S32x8192, .f32⟩
  | .local _ .vmem, ⟨0, _⟩ => ⟨S32x8192, .f32⟩
  | .local _ .vmem, ⟨1, _⟩ => ⟨S256x8192, .f32⟩
  | .local _ .vmem, ⟨2, _⟩ => ⟨S1x256, .f32⟩
  | .local _ .vmem, ⟨3, _⟩ => ⟨S256x8192, .f32⟩
  | .local _ .vmem, ⟨4, _⟩ => ⟨S1x256, .f32⟩
  | .local _ .vmem, ⟨5, _⟩ => ⟨S32x32, .f32⟩
  | .local _ .vmem, ⟨6, _⟩ => ⟨S512x8192, .f32⟩
  | .local _ .vmem, ⟨7, _⟩ => ⟨S512x8192, .f32⟩
  | .local _ .vmem, ⟨8, _⟩ => ⟨S1x512, .f32⟩
  | .local _ .vmem, ⟨9, _⟩ => ⟨S1x512, .f32⟩
  | .local _ .vmem, ⟨10, _⟩ => ⟨S32x512, .f32⟩
  | .local _ .vmem, ⟨11, _⟩ => ⟨S32x512, .f32⟩
  | .local _ .vmem, ⟨12, _⟩ => ⟨S32x32, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

abbrev stage0_0 : Fin 1 → Memref sig .tc .vmem S32x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S256_S1x256 : S256.ShapeCasts S1x256
  shapeCasts_S8192_S1x8192 : S8192.ShapeCasts S1x8192
  inb_S32x8192_S32x8192_0_0 : ∀ a, (![0, 0] : Fin 2 → Nat) a + S32x8192.size a ≤ S32x8192.size a
  h_S32x8192 : 0 < S32x8192.numel
  inb_S256x8192_S256x8192_0_0 : ∀ a, (![0, 0] : Fin 2 → Nat) a + S256x8192.size a ≤ S256x8192.size a
  h_S256x8192 : 0 < S256x8192.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S32x32_S32x32_0_0 : ∀ a, (![0, 0] : Fin 2 → Nat) a + S32x32.size a ≤ S32x32.size a
  h_S32x32 : 0 < S32x32.numel
  reduces_S32x32_S32 : S32x32.Reduces [1] S32
  shapeCasts_S32_S32x1 : S32.ShapeCasts S32x1
  broadcasts_S32x1_S32x32 : S32x1.Broadcasts S32x32
  shapeCasts_S32x32_S32x32 : S32x32.ShapeCasts S32x32
  inb_S512x8192_S512x8192_0_0 : ∀ a, (![0, 0] : Fin 2 → Nat) a + S512x8192.size a ≤ S512x8192.size a
  h_S512x8192 : 0 < S512x8192.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  inb_S32x512_S32x512_0_0 : ∀ a, (![0, 0] : Fin 2 → Nat) a + S32x512.size a ≤ S32x512.size a
  h_S32x512 : 0 < S32x512.numel
  dot_S32x8192_S256x8192_S32x256_1_1_0_0_n_n_wf : DotDims.WF S32x8192 S256x8192 S32x256 [1] [1] [0] [0] [] []
  dot_S32x256_S32x256_S32x32_1_1_0_0_n_n_wf : DotDims.WF S32x256 S32x256 S32x32 [1] [1] [0] [0] [] []
  dot_S32x8192_S512x8192_S32x512_1_1_0_0_n_n_wf : DotDims.WF S32x8192 S512x8192 S32x512 [1] [1] [0] [0] [] []
  dot_S32x32_S32x512_S32x512_1_0_0_1_n_n_wf : DotDims.WF S32x32 S32x512 S32x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x8192.size a
  hwx0_0 : ∀ i : grid0.Coords, EltTy.bits .f32 = 32 ∨ (Rect.block (s := S32x8192) S32x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S256x8192.size a
  hwx0_1 : ∀ i : grid0.Coords, EltTy.bits .f32 = 32 ∨ (Rect.block (s := S256x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S256x8192.size a
  hwx0_3 : ∀ i : grid0.Coords, EltTy.bits .f32 = 32 ∨ (Rect.block (s := S256x8192) S256x8192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x8192.size a ≤ S8192x8192.size a
  hwx0_6 : ∀ i : grid0.Coords, EltTy.bits .f32 = 32 ∨ (Rect.block (s := S8192x8192) S512x8192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x8192.size a
  hwx0_7 : ∀ i : grid0.Coords, EltTy.bits .f32 = 32 ∨ (Rect.block (s := S1x8192) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x512.size a ≤ S32x8192.size a
  hwx0_8 : ∀ i : grid0.Coords, EltTy.bits .f32 = 32 ∨ (Rect.block (s := S32x8192) S32x512.size (cc0_transform_8 i) (hinb0_8 i)).WholeWords (EltTy.packing .f32)

variable [Facts₀]

def dot_S32x8192_S256x8192_S32x256_1_1_0_0_n_n : DotDims S32x8192 S256x8192 S32x256 where
  lhsContracting := [1]
  rhsContracting := [1]
  lhsNonContracting := [0]
  rhsNonContracting := [0]
  lhsBatch := []
  rhsBatch := []
  wf := dot_S32x8192_S256x8192_S32x256_1_1_0_0_n_n_wf
def dot_S32x256_S32x256_S32x32_1_1_0_0_n_n : DotDims S32x256 S32x256 S32x32 where
  lhsContracting := [1]
  rhsContracting := [1]
  lhsNonContracting := [0]
  rhsNonContracting := [0]
  lhsBatch := []
  rhsBatch := []
  wf := dot_S32x256_S32x256_S32x32_1_1_0_0_n_n_wf
def dot_S32x8192_S512x8192_S32x512_1_1_0_0_n_n : DotDims S32x8192 S512x8192 S32x512 where
  lhsContracting := [1]
  rhsContracting := [1]
  lhsNonContracting := [0]
  rhsNonContracting := [0]
  lhsBatch := []
  rhsBatch := []
  wf := dot_S32x8192_S512x8192_S32x512_1_1_0_0_n_n_wf
def dot_S32x32_S32x512_S32x512_1_0_0_1_n_n : DotDims S32x32 S32x512 S32x512 where
  lhsContracting := [1]
  rhsContracting := [0]
  lhsNonContracting := [0]
  rhsNonContracting := [1]
  lhsBatch := []
  rhsBatch := []
  wf := dot_S32x32_S32x512_S32x512_1_0_0_1_n_n_wf

abbrev win0_0 : Pipeline.Window sig grid0 :=
  Pipeline.Window.ofSpec (Memref.whole main_arg0) S32x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512x8192.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S32x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x8192 : Shape := ⟨2, ![32, 8192]⟩
abbrev S256x8192 : Shape := ⟨2, ![256, 8192]⟩
abbrev S256 : Shape := ⟨1, ![256]⟩
abbrev S8192x8192 : Shape := ⟨2, ![8192, 8192]⟩
abbrev S8192 : Shape := ⟨1, ![8192]⟩
abbrev S32x32 : Shape := ⟨2, ![32, 32]⟩
abbrev S8192x256 : Shape := ⟨2, ![8192, 256]⟩
abbrev S32x256 : Shape := ⟨2, ![32, 256]⟩
abbrev S1x256 : Shape := ⟨2, ![1, 256]⟩
abbrev S1x8192 : Shape := ⟨2, ![1, 8192]⟩
abbrev S256x32 : Shape := ⟨2, ![256, 32]⟩
abbrev S_ : Shape := ⟨0, ![]⟩
abbrev S32 : Shape := ⟨1, ![32]⟩
abbrev S32x1 : Shape := ⟨2, ![32, 1]⟩

abbrev nBuf : Space → Nat
  | .hbm => 44
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S256x8192, .f32⟩
  | .hbm, ⟨2, _⟩ => ⟨S256, .f32⟩
  | .hbm, ⟨3, _⟩ => ⟨S256x8192, .f32⟩
  | .hbm, ⟨4, _⟩ => ⟨S256, .f32⟩
  | .hbm, ⟨5, _⟩ => ⟨S8192x8192, .f32⟩
  | .hbm, ⟨6, _⟩ => ⟨S8192, .f32⟩
  | .hbm, ⟨7, _⟩ => ⟨S32x32, .f32⟩
  | .hbm, ⟨8, _⟩ => ⟨S8192x256, .f32⟩
  | .hbm, ⟨9, _⟩ => ⟨S32x256, .f32⟩
  | .hbm, ⟨10, _⟩ => ⟨S1x256, .f32⟩
  | .hbm, ⟨11, _⟩ => ⟨S32x256, .f32⟩
  | .hbm, ⟨12, _⟩ => ⟨S32x256, .f32⟩
  | .hbm, ⟨13, _⟩ => ⟨S8192x256, .f32⟩
  | .hbm, ⟨14, _⟩ => ⟨S32x256, .f32⟩
  | .hbm, ⟨15, _⟩ => ⟨S1x256, .f32⟩
  | .hbm, ⟨16, _⟩ => ⟨S32x256, .f32⟩
  | .hbm, ⟨17, _⟩ => ⟨S32x256, .f32⟩
  | .hbm, ⟨18, _⟩ => ⟨S8192x8192, .f32⟩
  | .hbm, ⟨19, _⟩ => ⟨S32x8192, .f32⟩
  | .hbm, ⟨20, _⟩ => ⟨S1x8192, .f32⟩
  | .hbm, ⟨21, _⟩ => ⟨S32x8192, .f32⟩
  | .hbm, ⟨22, _⟩ => ⟨S32x8192, .f32⟩
  | .hbm, ⟨23, _⟩ => ⟨S256x32, .f32⟩
  | .hbm, ⟨24, _⟩ => ⟨S32x32, .f32⟩
  | .hbm, ⟨25, _⟩ => ⟨S_, .f32⟩
  | .hbm, ⟨26, _⟩ => ⟨S32x32, .f32⟩
  | .hbm, ⟨27, _⟩ => ⟨S32x32, .f32⟩
  | .hbm, ⟨28, _⟩ => ⟨S32x32, .f32⟩
  | .hbm, ⟨29, _⟩ => ⟨S_, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S32x1, .f32⟩
  | .hbm, ⟨35, _⟩ => ⟨S32x32, .f32⟩
  | .hbm, ⟨36, _⟩ => ⟨S32x32, .f32⟩
  | .hbm, ⟨37, _⟩ => ⟨S32x32, .f32⟩
  | .hbm, ⟨38, _⟩ => ⟨S_, .f32⟩
  | .hbm, ⟨39, _⟩ => ⟨S32, .f32⟩
  | .hbm, ⟨40, _⟩ => ⟨S32x1, .f32⟩
  | .hbm, ⟨41, _⟩ => ⟨S32x32, .f32⟩
  | .hbm, ⟨42, _⟩ => ⟨S32x32, .f32⟩
  | .hbm, ⟨43, _⟩ => ⟨S32x8192, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  transposes_S256x8192_S8192x256_1_0 : S256x8192.Transposes [1, 0] S8192x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  transposes_S8192x8192_S8192x8192_1_0 : S8192x8192.Transposes [1, 0] S8192x8192
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  transposes_S32x256_S256x32_1_0 : S32x256.Transposes [1, 0] S256x32
  bcast_S_S32x32 : S_.BroadcastsInDim S32x32 (![] : Fin 0 → Fin S32x32.rank)
  reducesTo_S32x32_S32_d1 : S32x32.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x32_0_1 : S32x1.BroadcastsInDim S32x32 (![0, 1] : Fin 2 → Fin S32x32.rank)
  dot_S32x8192_S8192x256_S32x256_1_0_0_1_n_n_wf : DotDims.WF S32x8192 S8192x256 S32x256 [1] [0] [0] [1] [] []
  dot_S32x8192_S8192x8192_S32x8192_1_0_0_1_n_n_wf : DotDims.WF S32x8192 S8192x8192 S32x8192 [1] [0] [0] [1] [] []
  dot_S32x256_S256x32_S32x32_1_0_0_1_n_n_wf : DotDims.WF S32x256 S256x32 S32x32 [1] [0] [0] [1] [] []
  dot_S32x32_S32x8192_S32x8192_1_0_0_1_n_n_wf : DotDims.WF S32x32 S32x8192 S32x8192 [1] [0] [0] [1] [] []

variable [Facts₀]

def dot_S32x8192_S8192x256_S32x256_1_0_0_1_n_n : DotDims S32x8192 S8192x256 S32x256 where
  lhsContracting := [1]
  rhsContracting := [0]
  lhsNonContracting := [0]
  rhsNonContracting := [1]
  lhsBatch := []
  rhsBatch := []
  wf := dot_S32x8192_S8192x256_S32x256_1_0_0_1_n_n_wf
def dot_S32x8192_S8192x8192_S32x8192_1_0_0_1_n_n : DotDims S32x8192 S8192x8192 S32x8192 where
  lhsContracting := [1]
  rhsContracting := [0]
  lhsNonContracting := [0]
  rhsNonContracting := [1]
  lhsBatch := []
  rhsBatch := []
  wf := dot_S32x8192_S8192x8192_S32x8192_1_0_0_1_n_n_wf
def dot_S32x256_S256x32_S32x32_1_0_0_1_n_n : DotDims S32x256 S256x32 S32x32 where
  lhsContracting := [1]
  rhsContracting := [0]
  lhsNonContracting := [0]
  rhsNonContracting := [1]
  lhsBatch := []
  rhsBatch := []
  wf := dot_S32x256_S256x32_S32x32_1_0_0_1_n_n_wf
def dot_S32x32_S32x8192_S32x8192_1_0_0_1_n_n : DotDims S32x32 S32x8192 S32x8192 where
  lhsContracting := [1]
  rhsContracting := [0]
  lhsNonContracting := [0]
  rhsNonContracting := [1]
  lhsBatch := []
  rhsBatch := []
  wf := dot_S32x32_S32x8192_S32x8192_1_0_0_1_n_n_wf

class Facts : Prop extends Facts₀ where

variable [Facts]
-- ==== Proof.Pieces.lean ====
/-
  What one run of the kernel body leaves behind, as values.

  The body has two behaviours.  On the first tile of a core's row of the grid it computes the 32 x 32 matrix of
  attention weights from the whole of x, the key and query weights and biases and the mask, stores it in the scratch
  buffer, reads it back, and multiplies it into the projected value tile.  On every later tile it only reads the
  scratch buffer, which still holds the weights, and does the same product.  Each store covers its buffer whole, so
  what a buffer holds afterwards is the stored value itself.
-/
import proofs.«150691_j17042430231165_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- First tile: the scratch buffer ends holding the attention weights computed from the six loaded blocks. -/
theorem scratch_first (c : Dev nD) (i : grid0.Coords) (a2 : Memref sig .tc .vmem S32x8192 .f32) (h2 : a2.IsWhole) (a3 : Memref sig .tc .vmem S256x8192 .f32) (h3 : a3.IsWhole) (a4 : Memref sig .tc .vmem S1x256 .f32) (h4 : a4.IsWhole) (a5 : Memref sig .tc .vmem S256x8192 .f32) (h5 : a5.IsWhole) (a6 : Memref sig .tc .vmem S1x256 .f32) (h6 : a6.IsWhole) (a7 : Memref sig .tc .vmem S32x32 .f32) (h7 : a7.IsWhole) (a8 : Memref sig .tc .vmem S512x8192 .f32) (h8 : a8.IsWhole) (a9 : Memref sig .tc .vmem S1x512 .f32) (h9 : a9.IsWhole) (a10 : Memref sig .tc .vmem S32x512 .f32) (h10 : a10.IsWhole) (a11 : Memref sig .tc .vmem S32x32 .f32) (h11 : a11.IsWhole) (hc : cond0_0 i) (x0 : Vec F S32x8192 .f32) (x1 : Vec F S256x8192 .f32) (x2 : Vec F S1x256 .f32) (x3 : Vec F S256x8192 .f32) (x4 : Vec F S1x256 .f32) (x5 : Vec F S32x32 .f32) (x6 : Vec F S512x8192 .f32) (x7 : Vec F S1x512 .f32) :
    sout0_A_0 c i a2 h2 a3 h3 a4 h4 a5 h5 a6 h6 a7 h7 a8 h8 a9 h9 a10 h10 a11 h11 hc x0 x1 x2 x3 x4 x5 x6 x7 = k0_pay1 x0 x1 x2 x3 x4 x5 := by
  unfold sout0_A_0
  rw [View.read_writes_eq_canon _ _ _ (scover0_A_0 c i a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero hz]
  simp only [View.readAt_eq_ld, h2.read_unread, h3.read_unread, h4.read_unread, h5.read_unread, h6.read_unread, h7.read_unread, View.ld_unit_zero (S := S32x8192) hz, View.ld_unit_zero (S := S256x8192) hz, View.ld_unit_zero (S := S1x256) hz, View.ld_unit_zero (S := S32x32) hz]

/-- First tile: the output tile is the product of those freshly stored weights with the projected value tile. -/
theorem out_first (c : Dev nD) (i : grid0.Coords) (a2 : Memref sig .tc .vmem S32x8192 .f32) (h2 : a2.IsWhole) (a3 : Memref sig .tc .vmem S256x8192 .f32) (h3 : a3.IsWhole) (a4 : Memref sig .tc .vmem S1x256 .f32) (h4 : a4.IsWhole) (a5 : Memref sig .tc .vmem S256x8192 .f32) (h5 : a5.IsWhole) (a6 : Memref sig .tc .vmem S1x256 .f32) (h6 : a6.IsWhole) (a7 : Memref sig .tc .vmem S32x32 .f32) (h7 : a7.IsWhole) (a8 : Memref sig .tc .vmem S512x8192 .f32) (h8 : a8.IsWhole) (a9 : Memref sig .tc .vmem S1x512 .f32) (h9 : a9.IsWhole) (a10 : Memref sig .tc .vmem S32x512 .f32) (h10 : a10.IsWhole) (a11 : Memref sig .tc .vmem S32x32 .f32) (h11 : a11.IsWhole) (hc : cond0_0 i) (x0 : Vec F S32x8192 .f32) (x1 : Vec F S256x8192 .f32) (x2 : Vec F S1x256 .f32) (x3 : Vec F S256x8192 .f32) (x4 : Vec F S1x256 .f32) (x5 : Vec F S32x32 .f32) (x6 : Vec F S512x8192 .f32) (x7 : Vec F S1x512 .f32) :
    out0_A_8 c i a2 h2 a3 h3 a4 h4 a5 h5 a6 h6 a7 h7 a8 h8 a9 h9 a10 h10 a11 h11 hc x0 x1 x2 x3 x4 x5 x6 x7 = k0_pay2 x0 x6 x7 (k0_pay1 x0 x1 x2 x3 x4 x5) := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5 x6 x7)]
  unfold kernelRun0_A
  dsimp only
  sl_unfold_words
  rw [View.canon_unit_zero hz, View.readCov_unit_zero (S := S32x32) _ hz]
  simp only [View.readAt_eq_ld, h2.read_unread, h3.read_unread, h4.read_unread, h5.read_unread, h6.read_unread, h7.read_unread, View.ld_unit_zero (S := S32x8192) hz, View.ld_unit_zero (S := S256x8192) hz, View.ld_unit_zero (S := S1x256) hz, View.ld_unit_zero (S := S32x32) hz, h8.read_unread, h9.read_unread, View.ld_unit_zero (S := S512x8192) hz, View.ld_unit_zero (S := S1x512) hz]

/-- Later tiles: the output tile is the product of whatever the scratch buffer holds with the projected value tile. -/
theorem out_later (c : Dev nD) (i : grid0.Coords) (a2 : Memref sig .tc .vmem S32x8192 .f32) (h2 : a2.IsWhole) (a3 : Memref sig .tc .vmem S256x8192 .f32) (h3 : a3.IsWhole) (a4 : Memref sig .tc .vmem S1x256 .f32) (h4 : a4.IsWhole) (a5 : Memref sig .tc .vmem S256x8192 .f32) (h5 : a5.IsWhole) (a6 : Memref sig .tc .vmem S1x256 .f32) (h6 : a6.IsWhole) (a7 : Memref sig .tc .vmem S32x32 .f32) (h7 : a7.IsWhole) (a8 : Memref sig .tc .vmem S512x8192 .f32) (h8 : a8.IsWhole) (a9 : Memref sig .tc .vmem S1x512 .f32) (h9 : a9.IsWhole) (a10 : Memref sig .tc .vmem S32x512 .f32) (h10 : a10.IsWhole) (a11 : Memref sig .tc .vmem S32x32 .f32) (h11 : a11.IsWhole) (hc : ¬cond0_0 i) (x0 : Vec F S32x8192 .f32) (x1 : Vec F S256x8192 .f32) (x2 : Vec F S1x256 .f32) (x3 : Vec F S256x8192 .f32) (x4 : Vec F S1x256 .f32) (x5 : Vec F S32x32 .f32) (x6 : Vec F S512x8192 .f32) (x7 : Vec F S1x512 .f32) (xs0 : Vec F S32x32 .f32) :
    out0_B_8 c i a2 h2 a3 h3 a4 h4 a5 h5 a6 h6 a7 h7 a8 h8 a9 h9 a10 h10 a11 h11 hc x0 x1 x2 x3 x4 x5 x6 x7 xs0 = k0_pay2 x0 x6 x7 xs0 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 x6 x7 xs0)]
  unfold kernelRun0_B
  dsimp only
  rw [View.canon_unit_zero hz]
  simp only [View.readAt_eq_ld, h2.read_unread, h8.read_unread, h9.read_unread, h11.read_unread, View.ld_unit_zero (S := S32x8192) hz, View.ld_unit_zero (S := S512x8192) hz, View.ld_unit_zero (S := S1x512) hz, View.ld_unit_zero (S := S32x32) hz]

end Cert.KernelIdeal.Pieces

end
-- ==== Proof.Carried.lean ====
/-
  The scratch buffer carries the attention weights across the grid.

  The six operands the weights are computed from (x, the key and query weights, their biases as rows, the mask) are
  windows whose block never moves and is the whole array, so every grid point sees the same six blocks.  The weights
  are recomputed from them on the first tile of each core's row and kept on the others: by induction on the grid
  point the scratch buffer holds one and the same matrix after every point, and every output tile is the product of
  that matrix with the point's projected value tile.
-/
import proofs.«150691_j17042430231165_2_alg».proof.Proof.Pieces

noncomputable section

namespace Cert.KernelIdeal.Carried

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-! ## The six windows that never move -/

theorem still0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem still1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem still2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem still3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem still4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem still5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 0 always sits at block (0, 0) and its block is the whole array. -/
theorem iblk_whole0 (c : Dev nD) (t : Fin cfg0.N) : (iblk m c 0 t : Vec F S32x8192 .f32) = (V m c main_arg0 : Vec F S32x8192 .f32) := by
  obtain ⟨e0, e1⟩ := still0 t
  funext y
  unfold iblk
  rw [View.read_apply]
  show V m c main_arg0 _ = V m c main_arg0 y
  congr 1
  funext a
  apply Fin.ext
  match a with
  | ⟨0, _⟩ => show win0_0.index t 0 * 32 + 1 * (y 0).val = (y 0).val; rw [e0]; omega
  | ⟨1, _⟩ => show win0_0.index t 1 * 8192 + 1 * (y 1).val = (y 1).val; rw [e1]; omega

/-- Window 1 always sits at block (0, 0) and its block is the whole array. -/
theorem iblk_whole1 (c : Dev nD) (t : Fin cfg0.N) : (iblk m c 1 t : Vec F S256x8192 .f32) = (V m c main_arg1 : Vec F S256x8192 .f32) := by
  obtain ⟨e0, e1⟩ := still1 t
  funext y
  unfold iblk
  rw [View.read_apply]
  show V m c main_arg1 _ = V m c main_arg1 y
  congr 1
  funext a
  apply Fin.ext
  match a with
  | ⟨0, _⟩ => show win0_1.index t 0 * 256 + 1 * (y 0).val = (y 0).val; rw [e0]; omega
  | ⟨1, _⟩ => show win0_1.index t 1 * 8192 + 1 * (y 1).val = (y 1).val; rw [e1]; omega

/-- Window 2 always sits at block (0, 0) and its block is the whole array. -/
theorem iblk_whole2 (c : Dev nD) (t : Fin cfg0.N) : (iblk m c 2 t : Vec F S1x256 .f32) = (V m c main_v0 : Vec F S1x256 .f32) := by
  obtain ⟨e0, e1⟩ := still2 t
  funext y
  unfold iblk
  rw [View.read_apply]
  show V m c main_v0 _ = V m c main_v0 y
  congr 1
  funext a
  apply Fin.ext
  match a with
  | ⟨0, _⟩ => show win0_2.index t 0 * 1 + 1 * (y 0).val = (y 0).val; rw [e0]; omega
  | ⟨1, _⟩ => show win0_2.index t 1 * 256 + 1 * (y 1).val = (y 1).val; rw [e1]; omega

/-- Window 3 always sits at block (0, 0) and its block is the whole array. -/
theorem iblk_whole3 (c : Dev nD) (t : Fin cfg0.N) : (iblk m c 3 t : Vec F S256x8192 .f32) = (V m c main_arg3 : Vec F S256x8192 .f32) := by
  obtain ⟨e0, e1⟩ := still3 t
  funext y
  unfold iblk
  rw [View.read_apply]
  show V m c main_arg3 _ = V m c main_arg3 y
  congr 1
  funext a
  apply Fin.ext
  match a with
  | ⟨0, _⟩ => show win0_3.index t 0 * 256 + 1 * (y 0).val = (y 0).val; rw [e0]; omega
  | ⟨1, _⟩ => show win0_3.index t 1 * 8192 + 1 * (y 1).val = (y 1).val; rw [e1]; omega

/-- Window 4 always sits at block (0, 0) and its block is the whole array. -/
theorem iblk_whole4 (c : Dev nD) (t : Fin cfg0.N) : (iblk m c 4 t : Vec F S1x256 .f32) = (V m c main_v1 : Vec F S1x256 .f32) := by
  obtain ⟨e0, e1⟩ := still4 t
  funext y
  unfold iblk
  rw [View.read_apply]
  show V m c main_v1 _ = V m c main_v1 y
  congr 1
  funext a
  apply Fin.ext
  match a with
  | ⟨0, _⟩ => show win0_4.index t 0 * 1 + 1 * (y 0).val = (y 0).val; rw [e0]; omega
  | ⟨1, _⟩ => show win0_4.index t 1 * 256 + 1 * (y 1).val = (y 1).val; rw [e1]; omega

/-- Window 5 always sits at block (0, 0) and its block is the whole array. -/
theorem iblk_whole5 (c : Dev nD) (t : Fin cfg0.N) : (iblk m c 5 t : Vec F S32x32 .f32) = (V m c main_arg7 : Vec F S32x32 .f32) := by
  obtain ⟨e0, e1⟩ := still5 t
  funext y
  unfold iblk
  rw [View.read_apply]
  show V m c main_arg7 _ = V m c main_arg7 y
  congr 1
  funext a
  apply Fin.ext
  match a with
  | ⟨0, _⟩ => show win0_5.index t 0 * 32 + 1 * (y 0).val = (y 0).val; rw [e0]; omega
  | ⟨1, _⟩ => show win0_5.index t 1 * 32 + 1 * (y 1).val = (y 1).val; rw [e1]; omega

/-! ## The weights, and what every point leaves -/

/-- The attention weights as the body computes them from the six whole arrays. -/
def weights (c : Dev nD) : Vec F S32x32 .f32 :=
  k0_pay1 (V m c main_arg0) (V m c main_arg1) (V m c main_v0) (V m c main_arg3) (V m c main_v1) (V m c main_arg7)

theorem first_eq (c : Dev nD) (t : Fin cfg0.N) :
    k0_pay1 (iblk m c 0 t) (iblk m c 1 t) (iblk m c 2 t) (iblk m c 3 t) (iblk m c 4 t) (iblk m c 5 t) = weights m c := by
  unfold weights
  rw [iblk_whole0 m c t, iblk_whole1 m c t, iblk_whole2 m c t, iblk_whole3 m c t, iblk_whole4 m c t, iblk_whole5 m c t]

/-- After every grid point the scratch buffer holds the weights. -/
theorem scratch_eq (c : Dev nD) : ∀ (n : ℕ) (h : n < cfg0.N), (outsAt0 m c n h).2 = weights m c
  | 0, h => by
    rw [outsAt0_A m c ⟨0, h⟩ rfl]
    dsimp only
    exact (Pieces.scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩)).trans (first_eq m c ⟨0, h⟩)
  | n + 1, h => by
    by_cases h0 : (n + 1) % 8 = 0
    · rw [outsAt0_A m c ⟨n + 1, h⟩ h0]
      dsimp only
      exact (Pieces.scratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)).trans (first_eq m c ⟨n + 1, h⟩)
    · rw [outsAt0_B m c ⟨n + 1, h⟩ h0]
      dsimp only
      unfold sout0_B_0
      exact scratch_eq c n (Nat.lt_of_succ_lt h)

/-- After every grid point the output's staging buffer holds the weights times the point's projected value tile. -/
theorem out_eq (c : Dev nD) (t : Fin cfg0.N) :
    (outsAt0 m c t.val t.isLt).1 = k0_pay2 (V m c main_arg0) (iblk m c 6 t) (iblk m c 7 t) (weights m c) := by
  by_cases h0 : t.val % 8 = 0
  · rw [outsAt0_A m c t h0]
    dsimp only
    refine (Pieces.out_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)).trans ?_
    rw [first_eq m c t, iblk_whole0 m c t]
  · rw [outsAt0_B m c t h0]
    dsimp only
    refine (Pieces.out_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2).trans ?_
    rw [scratch_eq m c (t.val - 1) _, iblk_whole0 m c t]

end Cert.KernelIdeal.Carried

end
-- ==== Proof.Ops.lean ====
/-
  The body's operations read at an index, on the extended reals.

  A matrix product into a zero accumulator is the plain sum of products over the contracted axis: for the three
  products that contract the last axis of both operands, entry (p, q) is the sum over k of l(p, k) r(q, k); for
  the product of the weights with the value tile, entry (p, q) is the sum over k of l(p, k) r(k, q).  A bias kept
  as one row and broadcast down the rows reads its entry in that row; a per-row quantity turned into a column and
  broadcast across the columns reads its entry for the row.
-/
import proofs.«150691_j17042430231165_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Ops

open Idealize.ShloMosaic Idealize.ShloMosaic.ValueIdx
open Cert.KernelIdeal Cert.KernelIdeal.Gen

/-! ## The four matrix products -/

/-- A row of x against a row of a key or query weight matrix. -/
theorem mm_proj (l : FVec Ideal S32x8192 .f32) (r : FVec Ideal S256x8192 .f32) (p : Fin 32) (q : Fin 256) :
    matmul dot_S32x8192_S256x8192_S32x256_1_1_0_0_n_n none l r (constant S32x256 .f32 0x00000000#32) (ix2 p q) = ∑ k : Fin 8192, l (ix2 p k) * r (ix2 q k) := by
  simp only [matmul]
  rw [Ideal.matmul_constant_zero_apply, ← Equiv.sum_comp (contrEquiv1 dot_S32x8192_S256x8192_S32x256_1_1_0_0_n_n 8192 rfl rfl).symm]
  refine Finset.sum_congr rfl fun k _ => ?_
  have hk := contrEquiv1_symm_val dot_S32x8192_S256x8192_S32x256_1_1_0_0_n_n 8192 rfl rfl k
  have el : dot_S32x8192_S256x8192_S32x256_1_1_0_0_n_n.lhsIdx (ix2 p q) ((contrEquiv1 dot_S32x8192_S256x8192_S32x256_1_1_0_0_n_n 8192 rfl rfl).symm k) = ix2 p k := funext fun a => Fin.ext (by
    match a with
    | ⟨0, _⟩ =>
      show (dot_S32x8192_S256x8192_S32x256_1_1_0_0_n_n.lhsIdx (ix2 p q) _ 0).val = p.val
      unfold DotDims.lhsIdx
      rw [dif_neg (show ¬(0 : Fin S32x8192.rank) ∈ dot_S32x8192_S256x8192_S32x256_1_1_0_0_n_n.lhsBatch by decide), dif_pos (show (0 : Fin S32x8192.rank) ∈ dot_S32x8192_S256x8192_S32x256_1_1_0_0_n_n.lhsNonContracting by decide)]
      rfl
    | ⟨1, _⟩ => exact (dot_S32x8192_S256x8192_S32x256_1_1_0_0_n_n.lhsIdx_val_of_single rfl _ _).trans hk)
  have er : dot_S32x8192_S256x8192_S32x256_1_1_0_0_n_n.rhsIdx (ix2 p q) ((contrEquiv1 dot_S32x8192_S256x8192_S32x256_1_1_0_0_n_n 8192 rfl rfl).symm k) = ix2 q k := funext fun a => Fin.ext (by
    match a with
    | ⟨0, _⟩ =>
      show (dot_S32x8192_S256x8192_S32x256_1_1_0_0_n_n.rhsIdx (ix2 p q) _ 0).val = q.val
      unfold DotDims.rhsIdx
      rw [dif_neg (show ¬(0 : Fin S256x8192.rank) ∈ dot_S32x8192_S256x8192_S32x256_1_1_0_0_n_n.rhsBatch by decide), dif_pos (show (0 : Fin S256x8192.rank) ∈ dot_S32x8192_S256x8192_S32x256_1_1_0_0_n_n.rhsNonContracting by decide)]
      rfl
    | ⟨1, _⟩ =>
      exact (dot_S32x8192_S256x8192_S32x256_1_1_0_0_n_n.rhsIdx_val_of_single rfl _ _).trans hk)
  rw [el, er]

/-- A query row against a key row. -/
theorem mm_scores (l : FVec Ideal S32x256 .f32) (r : FVec Ideal S32x256 .f32) (p : Fin 32) (q : Fin 32) :
    matmul dot_S32x256_S32x256_S32x32_1_1_0_0_n_n none l r (constant S32x32 .f32 0x00000000#32) (ix2 p q) = ∑ k : Fin 256, l (ix2 p k) * r (ix2 q k) := by
  simp only [matmul]
  rw [Ideal.matmul_constant_zero_apply, ← Equiv.sum_comp (contrEquiv1 dot_S32x256_S32x256_S32x32_1_1_0_0_n_n 256 rfl rfl).symm]
  refine Finset.sum_congr rfl fun k _ => ?_
  have hk := contrEquiv1_symm_val dot_S32x256_S32x256_S32x32_1_1_0_0_n_n 256 rfl rfl k
  have el : dot_S32x256_S32x256_S32x32_1_1_0_0_n_n.lhsIdx (ix2 p q) ((contrEquiv1 dot_S32x256_S32x256_S32x32_1_1_0_0_n_n 256 rfl rfl).symm k) = ix2 p k := funext fun a => Fin.ext (by
    match a with
    | ⟨0, _⟩ =>
      show (dot_S32x256_S32x256_S32x32_1_1_0_0_n_n.lhsIdx (ix2 p q) _ 0).val = p.val
      unfold DotDims.lhsIdx
      rw [dif_neg (show ¬(0 : Fin S32x256.rank) ∈ dot_S32x256_S32x256_S32x32_1_1_0_0_n_n.lhsBatch by decide), dif_pos (show (0 : Fin S32x256.rank) ∈ dot_S32x256_S32x256_S32x32_1_1_0_0_n_n.lhsNonContracting by decide)]
      rfl
    | ⟨1, _⟩ => exact (dot_S32x256_S32x256_S32x32_1_1_0_0_n_n.lhsIdx_val_of_single rfl _ _).trans hk)
  have er : dot_S32x256_S32x256_S32x32_1_1_0_0_n_n.rhsIdx (ix2 p q) ((contrEquiv1 dot_S32x256_S32x256_S32x32_1_1_0_0_n_n 256 rfl rfl).symm k) = ix2 q k := funext fun a => Fin.ext (by
    match a with
    | ⟨0, _⟩ =>
      show (dot_S32x256_S32x256_S32x32_1_1_0_0_n_n.rhsIdx (ix2 p q) _ 0).val = q.val
      unfold DotDims.rhsIdx
      rw [dif_neg (show ¬(0 : Fin S32x256.rank) ∈ dot_S32x256_S32x256_S32x32_1_1_0_0_n_n.rhsBatch by decide), dif_pos (show (0 : Fin S32x256.rank) ∈ dot_S32x256_S32x256_S32x32_1_1_0_0_n_n.rhsNonContracting by decide)]
      rfl
    | ⟨1, _⟩ =>
      exact (dot_S32x256_S32x256_S32x32_1_1_0_0_n_n.rhsIdx_val_of_single rfl _ _).trans hk)
  rw [el, er]

/-- A row of x against a row of the value weight tile. -/
theorem mm_values (l : FVec Ideal S32x8192 .f32) (r : FVec Ideal S512x8192 .f32) (p : Fin 32) (q : Fin 512) :
    matmul dot_S32x8192_S512x8192_S32x512_1_1_0_0_n_n none l r (constant S32x512 .f32 0x00000000#32) (ix2 p q) = ∑ k : Fin 8192, l (ix2 p k) * r (ix2 q k) := by
  simp only [matmul]
  rw [Ideal.matmul_constant_zero_apply, ← Equiv.sum_comp (contrEquiv1 dot_S32x8192_S512x8192_S32x512_1_1_0_0_n_n 8192 rfl rfl).symm]
  refine Finset.sum_congr rfl fun k _ => ?_
  have hk := contrEquiv1_symm_val dot_S32x8192_S512x8192_S32x512_1_1_0_0_n_n 8192 rfl rfl k
  have el : dot_S32x8192_S512x8192_S32x512_1_1_0_0_n_n.lhsIdx (ix2 p q) ((contrEquiv1 dot_S32x8192_S512x8192_S32x512_1_1_0_0_n_n 8192 rfl rfl).symm k) = ix2 p k := funext fun a => Fin.ext (by
    match a with
    | ⟨0, _⟩ =>
      show (dot_S32x8192_S512x8192_S32x512_1_1_0_0_n_n.lhsIdx (ix2 p q) _ 0).val = p.val
      unfold DotDims.lhsIdx
      rw [dif_neg (show ¬(0 : Fin S32x8192.rank) ∈ dot_S32x8192_S512x8192_S32x512_1_1_0_0_n_n.lhsBatch by decide), dif_pos (show (0 : Fin S32x8192.rank) ∈ dot_S32x8192_S512x8192_S32x512_1_1_0_0_n_n.lhsNonContracting by decide)]
      rfl
    | ⟨1, _⟩ => exact (dot_S32x8192_S512x8192_S32x512_1_1_0_0_n_n.lhsIdx_val_of_single rfl _ _).trans hk)
  have er : dot_S32x8192_S512x8192_S32x512_1_1_0_0_n_n.rhsIdx (ix2 p q) ((contrEquiv1 dot_S32x8192_S512x8192_S32x512_1_1_0_0_n_n 8192 rfl rfl).symm k) = ix2 q k := funext fun a => Fin.ext (by
    match a with
    | ⟨0, _⟩ =>
      show (dot_S32x8192_S512x8192_S32x512_1_1_0_0_n_n.rhsIdx (ix2 p q) _ 0).val = q.val
      unfold DotDims.rhsIdx
      rw [dif_neg (show ¬(0 : Fin S512x8192.rank) ∈ dot_S32x8192_S512x8192_S32x512_1_1_0_0_n_n.rhsBatch by decide), dif_pos (show (0 : Fin S512x8192.rank) ∈ dot_S32x8192_S512x8192_S32x512_1_1_0_0_n_n.rhsNonContracting by decide)]
      rfl
    | ⟨1, _⟩ =>
      exact (dot_S32x8192_S512x8192_S32x512_1_1_0_0_n_n.rhsIdx_val_of_single rfl _ _).trans hk)
  rw [el, er]

/-- A row of weights against a column of the projected value tile. -/
theorem mm_attend (l : FVec Ideal S32x32 .f32) (r : FVec Ideal S32x512 .f32) (p : Fin 32) (q : Fin 512) :
    matmul dot_S32x32_S32x512_S32x512_1_0_0_1_n_n none l r (constant S32x512 .f32 0x00000000#32) (ix2 p q) = ∑ k : Fin 32, l (ix2 p k) * r (ix2 k q) := by
  simp only [matmul]
  rw [Ideal.matmul_constant_zero_apply, ← Equiv.sum_comp (contrEquiv1 dot_S32x32_S32x512_S32x512_1_0_0_1_n_n 32 rfl rfl).symm]
  refine Finset.sum_congr rfl fun k _ => ?_
  have hk := contrEquiv1_symm_val dot_S32x32_S32x512_S32x512_1_0_0_1_n_n 32 rfl rfl k
  have el : dot_S32x32_S32x512_S32x512_1_0_0_1_n_n.lhsIdx (ix2 p q) ((contrEquiv1 dot_S32x32_S32x512_S32x512_1_0_0_1_n_n 32 rfl rfl).symm k) = ix2 p k := funext fun a => Fin.ext (by
    match a with
    | ⟨0, _⟩ =>
      show (dot_S32x32_S32x512_S32x512_1_0_0_1_n_n.lhsIdx (ix2 p q) _ 0).val = p.val
      unfold DotDims.lhsIdx
      rw [dif_neg (show ¬(0 : Fin S32x32.rank) ∈ dot_S32x32_S32x512_S32x512_1_0_0_1_n_n.lhsBatch by decide), dif_pos (show (0 : Fin S32x32.rank) ∈ dot_S32x32_S32x512_S32x512_1_0_0_1_n_n.lhsNonContracting by decide)]
      rfl
    | ⟨1, _⟩ => exact (dot_S32x32_S32x512_S32x512_1_0_0_1_n_n.lhsIdx_val_of_single rfl _ _).trans hk)
  have er : dot_S32x32_S32x512_S32x512_1_0_0_1_n_n.rhsIdx (ix2 p q) ((contrEquiv1 dot_S32x32_S32x512_S32x512_1_0_0_1_n_n 32 rfl rfl).symm k) = ix2 k q := funext fun a => Fin.ext (by
    match a with
    | ⟨0, _⟩ =>
      exact (dot_S32x32_S32x512_S32x512_1_0_0_1_n_n.rhsIdx_val_of_single rfl _ _).trans hk
    | ⟨1, _⟩ =>
      show (dot_S32x32_S32x512_S32x512_1_0_0_1_n_n.rhsIdx (ix2 p q) _ 1).val = q.val
      unfold DotDims.rhsIdx
      rw [dif_neg (show ¬(1 : Fin S32x512.rank) ∈ dot_S32x32_S32x512_S32x512_1_0_0_1_n_n.rhsBatch by decide), dif_pos (show (1 : Fin S32x512.rank) ∈ dot_S32x32_S32x512_S32x512_1_0_0_1_n_n.rhsNonContracting by decide)]
      rfl)
  rw [el, er]

/-! ## Rows and columns broadcast -/

/-- A 256-entry bias row broadcast down 32 rows. -/
theorem bias_row256 (b : FVec Ideal S1x256 .f32) (p : Fin 32) (q : Fin 256) :
    broadcastTo S32x256 (shapeCast S1x256 b shapeCasts_S1x256_S1x256) broadcasts_S1x256_S32x256 (ix2 p q) = b (ix2 (0 : Fin 1) q) := by
  rw [shapeCast_self]
  exact broadcastTo_1b_ab_apply b broadcasts_S1x256_S32x256 p q

/-- A 512-entry bias row broadcast down 32 rows. -/
theorem bias_row512 (b : FVec Ideal S1x512 .f32) (p : Fin 32) (q : Fin 512) :
    broadcastTo S32x512 (shapeCast S1x512 b shapeCasts_S1x512_S1x512) broadcasts_S1x512_S32x512 (ix2 p q) = b (ix2 (0 : Fin 1) q) := by
  rw [shapeCast_self]
  exact broadcastTo_1b_ab_apply b broadcasts_S1x512_S32x512 p q

/-- A per-row quantity as a column, broadcast across 32 columns. -/
theorem column (v : FVec Ideal S32 .f32) (p q : Fin 32) :
    broadcastTo S32x32 (shapeCast S32x1 v shapeCasts_S32_S32x1) broadcasts_S32x1_S32x32 (ix2 p q) = v (ix1 p) := by
  rw [broadcastTo_apply (shapeCast S32x1 v shapeCasts_S32_S32x1) broadcasts_S32x1_S32x32 (ix2 p q) (ix2 p (0 : Fin 1)) (fun a => by
    match a with
    | ⟨0, _⟩ => show p.val = if (32 : Nat) = 1 then 0 else p.val; rw [if_neg (by decide)]
    | ⟨1, _⟩ => show 0 = if (1 : Nat) = 1 then 0 else q.val; rw [if_pos rfl])]
  exact shapeCast_apply v shapeCasts_S32_S32x1 (ix2 p (0 : Fin 1)) (ix1 p) (by
    rw [Shape.rowMajor_val_two, Shape.rowMajor_val_one]
    show p.val = p.val * 1 + 0
    omega)

end Cert.KernelIdeal.Ops

end
-- ==== Proof.Weights.lean ====
/-
  The attention weights: the kernel's computation and the reference's are one 32 x 32 array.

  Both sides compute, from x, the key and query weights and biases and the mask,
      K = x Wk^T + bk,   Q = x Wq^T + bq,   S = min (Q K^T / 256, mask),
      A(p, q) = exp (S(p, q) - top_p) / sum over l of exp (S(p, l) - top_p),   top_p = the largest entry of row p of S,
  with the same constants.  The kernel contracts the last axes of both operands where the reference transposes and
  contracts first against last; the kernel keeps each bias as one row and each row maximum and row sum as a column
  where the reference broadcasts in two steps; the two maxima over a row are folds over the same 32 entries and the
  two row sums are sums over the same 32 entries.  Stage by stage the two arrays are equal; no entry needs to be
  finite for any of it.
-/
import proofs.«150691_j17042430231165_2_alg».proof.Proof.Ops
import proofs.«150691_j17042430231165_2_alg».proof.Proof.Gen.ReferenceIdeal.Read

noncomputable section

namespace Cert.KernelIdeal.Weights

open Idealize.ShloMosaic Idealize.ShloMosaic.ValueIdx
open Cert.KernelIdeal Cert.KernelIdeal.Gen
open Cert.ReferenceIdeal.Read

/-! ## Keys and queries -/

/-- x W^T + b with the bias as a row, against the reference's transposed product plus its broadcast bias. -/
theorem proj_eq (x : FVec Ideal S32x8192 .f32) (w : FVec Ideal S256x8192 .f32) (b2 : FVec Ideal S1x256 .f32)
    (b : FVec Ideal S256 .f32) (hb : ∀ j : Fin 256, b2 (ix2 (0 : Fin 1) j) = b (ix1 j)) :
    addf (matmul dot_S32x8192_S256x8192_S32x256_1_1_0_0_n_n none x w (constant S32x256 .f32 0x00000000#32))
        (broadcastTo S32x256 (shapeCast S1x256 b2 shapeCasts_S1x256_S1x256) broadcasts_S1x256_S32x256)
      = val_main_v4 (F := Ideal) x w b := by
  funext i
  obtain ⟨p, q, rfl⟩ : ∃ (p : Fin 32) (q : Fin 256), i = ix2 p q := ⟨i 0, i 1, eq_ix2 i⟩
  rw [val_main_v4_apply, val_main_v1_apply, val_main_v3_apply, val_main_v2_apply]
  show matmul dot_S32x8192_S256x8192_S32x256_1_1_0_0_n_n none x w (constant S32x256 .f32 0x00000000#32) (ix2 p q)
      + broadcastTo S32x256 (shapeCast S1x256 b2 shapeCasts_S1x256_S1x256) broadcasts_S1x256_S32x256 (ix2 p q) = _ + _
  rw [Ops.mm_proj, Ops.bias_row256, hb]
  refine congrArg₂ (· + ·) (Finset.sum_congr rfl fun k _ => ?_) (congrArg b ?_)
  · rw [val_main_v0_apply]
    refine congrArg₂ (· * ·) (congrArg x ?_) (congrArg w ?_)
    · funext a; match a with | ⟨0, _⟩ => rfl | ⟨1, _⟩ => rfl
    · funext a; match a with | ⟨0, _⟩ => rfl | ⟨1, _⟩ => rfl
  · funext a; match a with | ⟨0, _⟩ => rfl

/-! ## Scores -/

/-- Q K^T / 256 clamped by the mask. -/
theorem scores_eq (x : FVec Ideal S32x8192 .f32) (wk : FVec Ideal S256x8192 .f32) (bk : FVec Ideal S256 .f32)
    (wq : FVec Ideal S256x8192 .f32) (bq : FVec Ideal S256 .f32) (tri : FVec Ideal S32x32 .f32) :
    minimumf (mulf (matmul (φ₁ := .f32) (φ₂ := .f32) dot_S32x256_S32x256_S32x32_1_1_0_0_n_n none (val_main_v4 (F := Ideal) x wq bq) (val_main_v4 (F := Ideal) x wk bk)
        (constant S32x32 .f32 0x00000000#32)) (broadcast S32x32 (Scalar.ofBits .f32 0x3B800000#32))) tri
      = val_main_v19 (F := Ideal) x wk bk wq bq tri := by
  funext i
  obtain ⟨p, q, rfl⟩ : ∃ (p : Fin 32) (q : Fin 32), i = ix2 p q := ⟨i 0, i 1, eq_ix2 i⟩
  rw [val_main_v19_apply, val_main_v18_apply, val_main_v17_apply, val_main_cst_apply, val_main_v16_apply]
  show FloatOps.minimumf (FloatOps.mulf (matmul (φ₁ := .f32) (φ₂ := .f32) dot_S32x256_S32x256_S32x32_1_1_0_0_n_n none (val_main_v4 (F := Ideal) x wq bq) (val_main_v4 (F := Ideal) x wk bk)
        (constant S32x32 .f32 0x00000000#32) (ix2 p q)) (Scalar.ofBits .f32 0x3B800000#32)) (tri (ix2 p q)) = _
  rw [Ops.mm_scores]
  refine congrArg₂ FloatOps.minimumf (congrArg₂ FloatOps.mulf (Finset.sum_congr rfl fun k _ => ?_) rfl) rfl
  rw [val_main_v15_apply]
  refine congrArg₂ (· * ·) (congrArg (val_main_v4 (F := Ideal) x wq bq) ?_) (congrArg (val_main_v4 (F := Ideal) x wk bk) ?_)
  · funext a; match a with | ⟨0, _⟩ => rfl | ⟨1, _⟩ => rfl
  · funext a; match a with | ⟨0, _⟩ => rfl | ⟨1, _⟩ => rfl

/-! ## The row maximum -/

/-- The floor both sides start the row maximum from is one extended real. -/
theorem lo_eq (j : Cert.ReferenceIdeal.S32.Idx) :
    broadcastInDim Cert.ReferenceIdeal.S32 ![] Cert.ReferenceIdeal.Gen.bcast_S_S32 (constant (F := Ideal) Cert.ReferenceIdeal.S_ .f32 0xFF800000#32) j
      = FloatOps.ofBits (F := Ideal) .f32 0xFF800000#32 := rfl

/-- The largest entry of a row: the kernel's reduction and the reference's are folds of max over the same 32 entries
    from the same starting value. -/
theorem row_max_eq (s : FVec Ideal S32x32 .f32) (j : S32.Idx) :
    multiReduction .maximumf [1] S32 s 0xFF800000#32 reduces_S32x32_S32 (.inl rfl) rfl j
      = Host.reduce FloatOps.maximumf s (constant Cert.ReferenceIdeal.S_ .f32 0xFF800000#32) Cert.ReferenceIdeal.Gen.reducesTo_S32x32_S32_d1 Cert.ReferenceIdeal.Gen.h_S_ j :=
  (Ideal.multiReduction_maximumf_single s 0xFF800000#32 reduces_S32x32_S32 (.inl rfl) rfl j).trans
    (Host.reduce_eq_fold_single FloatOps.maximumf s (constant Cert.ReferenceIdeal.S_ .f32 0xFF800000#32) Cert.ReferenceIdeal.Gen.reducesTo_S32x32_S32_d1
      reduces_S32x32_S32 Cert.ReferenceIdeal.Gen.h_S_ j).symm

/-- The row maxima, floored once more at the starting value, as arrays. -/
theorem top_eq (s : FVec Ideal S32x32 .f32) :
    maximumf (broadcast S32 (Scalar.ofBits (F := Ideal) .f32 0xFF800000#32))
        (multiReduction .maximumf [1] S32 s 0xFF800000#32 reduces_S32x32_S32 (.inl rfl) rfl)
      = maximumf (broadcastInDim Cert.ReferenceIdeal.S32 ![] Cert.ReferenceIdeal.Gen.bcast_S_S32 (constant Cert.ReferenceIdeal.S_ .f32 0xFF800000#32))
        (Host.reduce FloatOps.maximumf s (constant Cert.ReferenceIdeal.S_ .f32 0xFF800000#32) Cert.ReferenceIdeal.Gen.reducesTo_S32x32_S32_d1 Cert.ReferenceIdeal.Gen.h_S_) :=
  funext fun j => congrArg₂ FloatOps.maximumf (lo_eq j).symm (row_max_eq s j)

/-! ## A per-row quantity spread over its row, the reference's way -/

theorem host_column (v : FVec Ideal Cert.ReferenceIdeal.S32 .f32) (p q : Fin 32) :
    broadcastInDim Cert.ReferenceIdeal.S32x32 ![0, 1] Cert.ReferenceIdeal.Gen.bcast_S32x1_S32x32_0_1 (broadcastInDim Cert.ReferenceIdeal.S32x1 ![0] Cert.ReferenceIdeal.Gen.bcast_S32_S32x1_0 v) (ix2 p q) = v (ix1 p) := by
  rw [broadcastInDim_apply _ Cert.ReferenceIdeal.Gen.bcast_S32x1_S32x32_0_1 (broadcastInDim Cert.ReferenceIdeal.S32x1 ![0] Cert.ReferenceIdeal.Gen.bcast_S32_S32x1_0 v) (ix2 p q) (ix2 p (0 : Fin 1)) (fun a => by
    match a with
    | ⟨0, _⟩ => show p.val = if (32 : Nat) = 1 then 0 else p.val; rw [if_neg (by decide)]
    | ⟨1, _⟩ => show 0 = if (1 : Nat) = 1 then 0 else q.val; rw [if_pos rfl])]
  exact broadcastInDim_apply _ Cert.ReferenceIdeal.Gen.bcast_S32_S32x1_0 v (ix2 p (0 : Fin 1)) (ix1 p) (fun a => by
    match a with
    | ⟨0, _⟩ => show p.val = if (32 : Nat) = 1 then 0 else p.val; rw [if_neg (by decide)])

/-! ## Shifted exponentials, row sums, quotients -/

theorem exps_eq (s : FVec Ideal S32x32 .f32) (tp : FVec Ideal S32 .f32) :
    exp (subf s (broadcastTo S32x32 (shapeCast S32x1 tp shapeCasts_S32_S32x1) broadcasts_S32x1_S32x32))
      = Host.exp (subf s (broadcastInDim Cert.ReferenceIdeal.S32x32 ![0, 1] Cert.ReferenceIdeal.Gen.bcast_S32x1_S32x32_0_1 (broadcastInDim Cert.ReferenceIdeal.S32x1 ![0] Cert.ReferenceIdeal.Gen.bcast_S32_S32x1_0 tp))) := by
  funext i
  obtain ⟨p, q, rfl⟩ : ∃ (p : Fin 32) (q : Fin 32), i = ix2 p q := ⟨i 0, i 1, eq_ix2 i⟩
  show FloatOps.exp (FloatOps.subf (s (ix2 p q)) (broadcastTo S32x32 (shapeCast S32x1 tp shapeCasts_S32_S32x1) broadcasts_S32x1_S32x32 (ix2 p q)))
    = FloatOps.hostUnary .exp (FloatOps.subf (s (ix2 p q)) (broadcastInDim Cert.ReferenceIdeal.S32x32 ![0, 1] Cert.ReferenceIdeal.Gen.bcast_S32x1_S32x32_0_1 (broadcastInDim Cert.ReferenceIdeal.S32x1 ![0] Cert.ReferenceIdeal.Gen.bcast_S32_S32x1_0 tp) (ix2 p q)))
  rw [Ops.column, host_column]
  rfl

theorem sums_eq (e : FVec Ideal S32x32 .f32) :
    multiReduction .add [1] S32 e 0x00000000#32 reduces_S32x32_S32 (.inl rfl) rfl
      = Host.reduceAdd e (constant Cert.ReferenceIdeal.S_ .f32 0x00000000#32) Cert.ReferenceIdeal.Gen.reducesTo_S32x32_S32_d1 Cert.ReferenceIdeal.Gen.h_S_ := by
  funext j
  refine (Ideal.multiReduction_add_single e 0x00000000#32 reduces_S32x32_S32 (.inl rfl) rfl j).trans ?_
  simp only [Host.reduceAdd, Ideal.hostReduceAdd_def]
  rw [Ideal.hostReduceAdd_single Cert.ReferenceIdeal.Gen.reducesTo_S32x32_S32_d1 reduces_S32x32_S32]
  show _ = Ideal.ofBits .f32 0x00000000#32 + _
  rw [Ideal.ofBits_zero_f32, zero_add]

theorem quot_eq (e : FVec Ideal S32x32 .f32) (d : FVec Ideal S32 .f32) :
    divf e (broadcastTo S32x32 (shapeCast S32x1 d shapeCasts_S32_S32x1) broadcasts_S32x1_S32x32)
      = Host.divf e (broadcastInDim Cert.ReferenceIdeal.S32x32 ![0, 1] Cert.ReferenceIdeal.Gen.bcast_S32x1_S32x32_0_1 (broadcastInDim Cert.ReferenceIdeal.S32x1 ![0] Cert.ReferenceIdeal.Gen.bcast_S32_S32x1_0 d)) := by
  funext i
  obtain ⟨p, q, rfl⟩ : ∃ (p : Fin 32) (q : Fin 32), i = ix2 p q := ⟨i 0, i 1, eq_ix2 i⟩
  show FloatOps.divf (e (ix2 p q)) (broadcastTo S32x32 (shapeCast S32x1 d shapeCasts_S32_S32x1) broadcasts_S32x1_S32x32 (ix2 p q))
    = FloatOps.hostDivf (e (ix2 p q)) (broadcastInDim Cert.ReferenceIdeal.S32x32 ![0, 1] Cert.ReferenceIdeal.Gen.bcast_S32x1_S32x32_0_1 (broadcastInDim Cert.ReferenceIdeal.S32x1 ![0] Cert.ReferenceIdeal.Gen.bcast_S32_S32x1_0 d) (ix2 p q))
  rw [Ops.column, host_column]
  rfl

/-! ## The weights -/

/-- The kernel's attention weights are the reference's, given that the kernel's bias rows hold the bias vectors. -/
theorem weights_eq (x : FVec Ideal S32x8192 .f32) (wk : FVec Ideal S256x8192 .f32) (bk2 : FVec Ideal S1x256 .f32)
    (wq : FVec Ideal S256x8192 .f32) (bq2 : FVec Ideal S1x256 .f32) (tri : FVec Ideal S32x32 .f32)
    (bk bq : FVec Ideal S256 .f32) (hk : ∀ j : Fin 256, bk2 (ix2 (0 : Fin 1) j) = bk (ix1 j))
    (hq : ∀ j : Fin 256, bq2 (ix2 (0 : Fin 1) j) = bq (ix1 j)) :
    k0_pay1 (F := Ideal) x wk bk2 wq bq2 tri = val_main_v30 (F := Ideal) x wk bk wq bq tri := by
  unfold k0_pay1
  dsimp only
  rw [shapeCast_self, proj_eq x wk bk2 bk hk, proj_eq x wq bq2 bq hq, scores_eq, top_eq, exps_eq, sums_eq, quot_eq]
  rfl

end Cert.KernelIdeal.Weights

end
-- ==== Proof.Tile.lean ====
/-
  One entry of an output tile is the reference's entry at the tile's place in the whole array.

  The body multiplies the 32 x 32 weights into the tile of projected values it builds from x, 512 rows of the value
  weight matrix and the matching 512 bias entries.  Entry (p, q) of the product is
      sum over l of A(p, l) * (sum over k of x(l, k) Wv(J, k) + bv(J)),
  where J is the row of the value weight matrix that row q of the tile is.  The reference's entry (p, J) of
  A (x Wv^T + bv) is the same double sum, term by term.
-/
import proofs.«150691_j17042430231165_2_alg».proof.Proof.Weights

noncomputable section

namespace Cert.KernelIdeal.Tile

open Idealize.ShloMosaic Idealize.ShloMosaic.ValueIdx
open Cert.KernelIdeal Cert.KernelIdeal.Gen
open Cert.ReferenceIdeal.Read

theorem entry_eq (x : FVec Ideal S32x8192 .f32) (wk : FVec Ideal S256x8192 .f32) (bk : FVec Ideal S256 .f32)
    (wq : FVec Ideal S256x8192 .f32) (bq : FVec Ideal S256 .f32) (wv : FVec Ideal S8192x8192 .f32) (bv : FVec Ideal S8192 .f32)
    (tri : FVec Ideal S32x32 .f32) (w6 : FVec Ideal S512x8192 .f32) (b7 : FVec Ideal S1x512 .f32)
    (p : Fin 32) (q : Fin 512) (J : Fin 8192)
    (hw : ∀ k : Fin 8192, w6 (ix2 q k) = wv (ix2 J k)) (hb : b7 (ix2 (0 : Fin 1) q) = bv (ix1 J)) :
    k0_pay2 (F := Ideal) x w6 b7 (val_main_v30 (F := Ideal) x wk bk wq bq tri) (ix2 p q)
      = val_main_v31 (F := Ideal) x wk bk wq bq wv bv tri (ix2 p J) := by
  unfold k0_pay2
  rw [Ops.mm_attend, val_main_v31_apply]
  refine Finset.sum_congr rfl fun l _ => ?_
  refine congrArg₂ (· * ·) (congrArg (val_main_v30 (F := Ideal) x wk bk wq bq tri) ?_) ?_
  · funext a; match a with | ⟨0, _⟩ => rfl | ⟨1, _⟩ => rfl
  · show matmul dot_S32x8192_S512x8192_S32x512_1_1_0_0_n_n none x w6 (constant S32x512 .f32 0x00000000#32) (ix2 l q)
        + broadcastTo S32x512 (shapeCast S1x512 b7 shapeCasts_S1x512_S1x512) broadcasts_S1x512_S32x512 (ix2 l q) = _
    rw [Ops.mm_values, Ops.bias_row512, val_main_v14_apply, val_main_v11_apply, val_main_v13_apply, val_main_v12_apply, hb]
    refine congrArg₂ (· + ·) (Finset.sum_congr rfl fun k _ => ?_) (congrArg bv ?_)
    · rw [val_main_v10_apply, hw]
      refine congrArg₂ (· * ·) (congrArg x ?_) (congrArg wv ?_)
      · funext a; match a with | ⟨0, _⟩ => rfl | ⟨1, _⟩ => rfl
      · funext a; match a with | ⟨0, _⟩ => rfl | ⟨1, _⟩ => rfl
    · funext a; match a with | ⟨0, _⟩ => rfl

end Cert.KernelIdeal.Tile

end
-- ==== Proof.Whole.lean ====
/-
  From tiles to the whole result array.

  Grid point t (of 16, the two cores' rows of 8 laid end to end) stages rows 512 t .. 512 t + 511 of the value weight
  matrix and the matching stretch of the bias, and writes back columns 512 t .. 512 t + 511 of the result.  Entry
  (p, q) of what it writes is the reference's entry (p, 512 t + q) of
      softmax (min (Q K^T / 256, mask)) (x Wv^T + bv),
  read off the argument arrays as launched; the sixteen column stretches tile the 8192 columns; so after the run the
  result array is that one function of the arguments.
-/
import proofs.«150691_j17042430231165_2_alg».proof.Proof.Carried
import proofs.«150691_j17042430231165_2_alg».proof.Proof.Tile
import proofs.«150691_j17042430231165_2_alg».proof.Proof.Gen.KernelIdeal.Value
import Idealize.ShloMosaic.Lib.StableHlo.Run

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen
open Cert.ReferenceIdeal.Read

variable (m : (ℓ : Loc nD τ sig) → Buf (Elt Ideal) ℓ) (ρ : Dev nD → PrngReg)

/-- The result as one function of the argument arrays as launched. -/
def G (c : Dev nD) : S32x8192.Idx → EReal :=
  val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-! ## The biases as rows -/

theorem row_k (c : Dev nD) : (V m c main_v0 : S1x256.Idx → EReal) = shapeCast S1x256 (m ((c : Thread nD τ).loc main_arg2)) shapeCasts_S256_S1x256 := by
  dsimp only [Gen.V, Gen.hostOps0]; after_results; rfl

theorem row_q (c : Dev nD) : (V m c main_v1 : S1x256.Idx → EReal) = shapeCast S1x256 (m ((c : Thread nD τ).loc main_arg4)) shapeCasts_S256_S1x256 := by
  dsimp only [Gen.V, Gen.hostOps0]; after_results; rfl

theorem row_v (c : Dev nD) : (V m c main_v2 : S1x8192.Idx → EReal) = shapeCast S1x8192 (m ((c : Thread nD τ).loc main_arg6)) shapeCasts_S8192_S1x8192 := by
  dsimp only [Gen.V, Gen.hostOps0]; after_results; rfl

/-! ## The weights in the scratch buffer are the reference's -/

theorem weights_eq (c : Dev nD) :
    Carried.weights m c = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  unfold Carried.weights
  rw [V_main_arg0 m c, V_main_arg1 m c, V_main_arg3 m c, V_main_arg7 m c]
  exact Weights.weights_eq _ _ _ _ _ _ (m ((c : Thread nD τ).loc main_arg2)) (m ((c : Thread nD τ).loc main_arg4))
    (fun j => by rw [row_k m c]; exact shapeCast_a_1a_apply _ shapeCasts_S256_S1x256 (0 : Fin 1) j)
    (fun j => by rw [row_q m c]; exact shapeCast_a_1a_apply _ shapeCasts_S256_S1x256 (0 : Fin 1) j)

/-! ## The moving windows -/

theorem moving : ∀ t : Fin cfg0.N, win0_6.index t (0 : Fin 2) = t.val ∧ win0_6.index t (1 : Fin 2) = 0
    ∧ win0_7.index t (0 : Fin 2) = 0 ∧ win0_7.index t (1 : Fin 2) = t.val
    ∧ win0_8.index t (0 : Fin 2) = 0 ∧ win0_8.index t (1 : Fin 2) = t.val :=
  (by decide +kernel : ∀ t : Fin grid0.N, win0_6.index t (0 : Fin 2) = t.val ∧ win0_6.index t (1 : Fin 2) = 0
    ∧ win0_7.index t (0 : Fin 2) = 0 ∧ win0_7.index t (1 : Fin 2) = t.val
    ∧ win0_8.index t (0 : Fin 2) = 0 ∧ win0_8.index t (1 : Fin 2) = t.val)

/-- Column q of tile t is column 512 t + q of the array. -/
def col (t : Fin cfg0.N) (q : Fin 512) : Fin 8192 :=
  ⟨t.val * 512 + q.val, by have h := t.isLt; have hN : cfg0.N = 16 := N_0; have := q.isLt; omega⟩

/-- Row q of the staged value weight tile is row 512 t + q of the value weight matrix. -/
theorem wv_tile (c : Dev nD) (t : Fin cfg0.N) (q : Fin 512) (k : Fin 8192) :
    (iblk m c 6 t : Vec Ideal S512x8192 .f32) (ix2 q k) = (m ((c : Thread nD τ).loc main_arg5)) (ix2 (col t q) k) := by
  obtain ⟨e0, e1, -, -, -, -⟩ := moving t
  unfold iblk
  rw [View.read_apply]
  show V m c main_arg5 _ = _
  rw [V_main_arg5 m c]
  congr 1
  funext a
  apply Fin.ext
  match a with
  | ⟨0, _⟩ => show win0_6.index t 0 * 512 + 1 * q.val = t.val * 512 + q.val; rw [e0]; omega
  | ⟨1, _⟩ => show win0_6.index t 1 * 8192 + 1 * k.val = k.val; rw [e1]; omega

/-- Entry q of the staged bias stretch is entry 512 t + q of the value bias. -/
theorem bv_tile (c : Dev nD) (t : Fin cfg0.N) (q : Fin 512) :
    (iblk m c 7 t : Vec Ideal S1x512 .f32) (ix2 (0 : Fin 1) q) = (m ((c : Thread nD τ).loc main_arg6)) (ix1 (col t q)) := by
  obtain ⟨-, -, e0, e1, -, -⟩ := moving t
  unfold iblk
  rw [View.read_apply]
  show V m c main_v2 _ = _
  rw [row_v m c]
  refine Eq.trans (congrArg _ ?_) (shapeCast_a_1a_apply (m ((c : Thread nD τ).loc main_arg6)) shapeCasts_S8192_S1x8192 (0 : Fin 1) (col t q))
  funext a
  apply Fin.ext
  match a with
  | ⟨0, _⟩ => show win0_7.index t 0 * 1 + 1 * 0 = 0; rw [e0]
  | ⟨1, _⟩ => show win0_7.index t 1 * 512 + 1 * q.val = t.val * 512 + q.val; rw [e1]; omega

/-! ## What a point writes back -/

/-- Entry (p, q) of the tile a point computes is the result function at (p, 512 t + q). -/
theorem tile_entry (c : Dev nD) (t : Fin cfg0.N) (p : Fin 32) (q : Fin 512) :
    k0_pay2 (F := Ideal) (V m c main_arg0) (iblk m c 6 t) (iblk m c 7 t) (Carried.weights m c) (ix2 p q) = G m c (ix2 p (col t q)) := by
  rw [weights_eq m c, V_main_arg0 m c]
  exact Tile.entry_eq _ _ _ _ _ (m ((c : Thread nD τ).loc main_arg5)) (m ((c : Thread nD τ).loc main_arg6)) _ (iblk m c 6 t) (iblk m c 7 t) p q (col t q) (wv_tile m c t q) (bv_tile m c t q)

theorem flushed_eq (c : Dev nD) (t : Fin cfg0.N) :
    (dats m 0 c).flushed 8 t = ((cfg0.win 8).blk t).view.read (Elt Ideal) (G m c) := by
  obtain ⟨-, -, -, -, e0, e1⟩ := moving t
  rw [Value.flushed8, Carried.out_eq]
  funext y
  show k0_pay2 (F := Ideal) (V m c main_arg0) (iblk m c 6 t) (iblk m c 7 t) (Carried.weights m c) y = G m c (((cfg0.win 8).blk t).view.emb y)
  have hy0 : (y 0).val < 32 := (y 0).isLt
  have hy1 : (y 1).val < 512 := (y 1).isLt
  have ey : y = ix2 (⟨(y 0).val, hy0⟩ : Fin 32) (⟨(y 1).val, hy1⟩ : Fin 512) := by
    funext a; match a with | ⟨0, _⟩ => rfl | ⟨1, _⟩ => rfl
  refine (congrArg _ ey).trans ((tile_entry m c t ⟨(y 0).val, hy0⟩ ⟨(y 1).val, hy1⟩).trans (congrArg (G m c) ?_))
  funext a
  apply Fin.ext
  match a with
  | ⟨0, _⟩ => show (y 0).val = win0_8.index t 0 * 32 + 1 * (y 0).val; rw [e0]; omega
  | ⟨1, _⟩ => show t.val * 512 + (y 1).val = win0_8.index t 1 * 512 + 1 * (y 1).val; rw [e1]; omega

/-! ## The sixteen column stretches tile the array -/

theorem mem_blk (t : Fin cfg0.N) (i : S32x8192.Idx) :
    i ∈ ((cfg0.win 8).blk t).view.set ↔ ∀ a : Fin 2, win0_8.index t a * S32x512.size a ≤ (i a).val ∧ (i a).val < win0_8.index t a * S32x512.size a + S32x512.size a := by
  show i ∈ ((View.whole main_v3).slice (win0_8.rect t)).set ↔ _
  rw [View.set_slice_whole, Rect.mem_set_unit]
  exact Iff.rfl

theorem cover (i : S32x8192.Idx) : ∃ t : Fin cfg0.N, (cfg0.win 8).flush t = true ∧ i ∈ ((cfg0.win 8).blk t).view.set := by
  have hN : cfg0.N = 16 := N_0
  have hi0 : (i 0).val < 32 := (i 0).isLt
  have hi1 : (i 1).val < 8192 := (i 1).isLt
  let t : Fin cfg0.N := ⟨(i 1).val / 512, by omega⟩
  obtain ⟨-, -, -, -, e0, e1⟩ := moving t
  refine ⟨t, flush0_8 t, ?_⟩
  rw [mem_blk]
  intro a
  match a with
  | ⟨0, _⟩ => show win0_8.index t 0 * 32 ≤ (i 0).val ∧ (i 0).val < win0_8.index t 0 * 32 + 32; rw [e0]; omega
  | ⟨1, _⟩ =>
    show win0_8.index t 1 * 512 ≤ (i 1).val ∧ (i 1).val < win0_8.index t 1 * 512 + 512
    rw [e1]
    show (i 1).val / 512 * 512 ≤ (i 1).val ∧ (i 1).val < (i 1).val / 512 * 512 + 512
    omega

theorem final (c : Dev nD) : (dats m 0 c).arrAt 8 cfg0.N = G m c :=
  (dats m 0 c).arrAt_eq_of_cover 8 (G m c) (fun t _ => flushed_eq m c t) cover

/-! ## The run -/

theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.lean ====
/-
  A fused attention head against its plain reference.

  Both programs compute, from x [32, 8192], key and query weights [256, 8192] with biases [256], value weights
  [8192, 8192] with bias [8192] and a mask [32, 32],
      K = x Wk^T + bk,  Q = x Wq^T + bq,  V = x Wv^T + bv,
      A = softmax over each row of min (Q K^T / 256, mask),   result = A V.
  The reference does it in one pass over whole arrays.  The kernel walks a grid of sixteen points; at each it
  projects one stretch of 512 columns of V and multiplies A into it, computing A on the first point of each core's
  row of eight and keeping it in a scratch buffer for the other seven.

  On the extended reals the two results are equal entry by entry, and no entry needs to be finite for that: every
  step is the same operation on the same entries, and the sums that differ in spelling (a product contracting last
  axes against a transposed product; a tile of V against all of V) are sums of the same terms over the same index.
  The modules: what one body run leaves (Pieces), the scratch buffer holding A after every point (Carried), the
  body's operations at an index (Ops), A equal to the reference's stage by stage (Weights), an entry of a tile equal
  to the reference's entry at its place (Tile), and the tiles covering the array (Whole).

  The three frames are the generated frame runs; the idealization rewrote nothing, so there is nothing to preserve.
-/
import proofs.«150691_j17042430231165_2_alg».proof.Defs
import proofs.«150691_j17042430231165_2_alg».proof.Proof.Gen.Kernel
import proofs.«150691_j17042430231165_2_alg».proof.Proof.Gen.Kernel.Skeleton
import proofs.«150691_j17042430231165_2_alg».proof.Proof.Gen.Kernel.Launch
import proofs.«150691_j17042430231165_2_alg».proof.Proof.Gen.Kernel.Points
import proofs.«150691_j17042430231165_2_alg».proof.Proof.Gen.Kernel.Frame
import proofs.«150691_j17042430231165_2_alg».proof.Proof.Gen.KernelIdeal
import proofs.«150691_j17042430231165_2_alg».proof.Proof.Gen.KernelIdeal.Skeleton
import proofs.«150691_j17042430231165_2_alg».proof.Proof.Gen.KernelIdeal.Launch
import proofs.«150691_j17042430231165_2_alg».proof.Proof.Gen.KernelIdeal.Points
import proofs.«150691_j17042430231165_2_alg».proof.Proof.Gen.KernelIdeal.Frame
import proofs.«150691_j17042430231165_2_alg».proof.Proof.Gen.ReferenceIdeal
import proofs.«150691_j17042430231165_2_alg».proof.Proof.Gen.Pre_finite_inputs
import proofs.«150691_j17042430231165_2_alg».proof.Proof.Gen.KernelIdeal.Value
import proofs.«150691_j17042430231165_2_alg».proof.Proof.Gen.ReferenceIdeal.Run
import proofs.«150691_j17042430231165_2_alg».proof.Proof.Gen.ReferenceIdeal.Read
import proofs.«150691_j17042430231165_2_alg».proof.Proof.Whole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The kernel's result array ends at the reference's last stage read off the kernel's own arguments; the reference's
    ends at the same stage of its arguments, which agree. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v31_eq, h0, h1, h2, h3, h4, h5, h6, h7]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
